-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S8192x1024 : Shape := ⟨2, ![8192, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x8192x1024 .f32) (main_arg1 : FVec F S8192x1024 .f32) (main_arg2 : FVec F S1024 .f32) (main_arg3 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x8192x1024 : Shape := ⟨3, ![4, 8192, 1024]⟩
abbrev S8192x1024 : Shape := ⟨2, ![8192, 1024]⟩
abbrev S1024 : Shape := ⟨1, ![1024]⟩
abbrev S1x1024 : Shape := ⟨2, ![1, 1024]⟩
abbrev S4x256x1024 : Shape := ⟨3, ![4, 256, 1024]⟩
abbrev S256x1024 : Shape := ⟨2, ![256, 1024]⟩
abbrev S1x256x1024 : Shape := ⟨3, ![1, 256, 1024]⟩
abbrev S4x256 : Shape := ⟨2, ![4, 256]⟩
abbrev S4x256x1 : Shape := ⟨3, ![4, 256, 1]⟩
abbrev S1x1x1024 : Shape := ⟨3, ![1, 1, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S4x8192x1024, .f32⟩
  | .local _ .vmem, ⟨0, _⟩ => ⟨S4x256x1024, .f32⟩
  | .local _ .vmem, ⟨1, _⟩ => ⟨S4x256x1024, .f32⟩
  | .local _ .vmem, ⟨2, _⟩ => ⟨S8192x1024, .f32⟩
  | .local _ .vmem, ⟨3, _⟩ => ⟨S1x1024, .f32⟩
  | .local _ .vmem, ⟨4, _⟩ => ⟨S1x1024, .f32⟩
  | .local _ .vmem, ⟨5, _⟩ => ⟨S4x256x1024, .f32⟩
  | .local _ .vmem, ⟨6, _⟩ => ⟨S4x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c256_i32 : BitVec 32 := 256#32
  let v1 : BitVec 32 := Scalar.muli arg0 c256_i32
  let v2 : Index := Scalar.indexCast v1
  let c0_2 : Index := 0#32
  ![v2.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S8192x1024_S8192x1024_0_0 : S8192x1024.Slices ![0, 0] S8192x1024
  shapeCasts_S1024_S1x1024 : S1024.ShapeCasts S1x1024
  inb_S4x256x1024_S4x256x1024_0_0_0 : ∀ a, (![0, 0, 0] : Fin 3 → Nat) a + S4x256x1024.size a ≤ S4x256x1024.size a
  h_S4x256x1024 : 0 < S4x256x1024.numel
  h_S256x1024 : 0 < S256x1024.numel
  shapeCasts_S256x1024_S256x1024 : S256x1024.ShapeCasts S256x1024
  shapeCasts_S256x1024_S1x256x1024 : S256x1024.ShapeCasts S1x256x1024
  broadcasts_S1x256x1024_S4x256x1024 : S1x256x1024.Broadcasts S4x256x1024
  reduces_S4x256x1024_S4x256 : S4x256x1024.Reduces [2] S4x256
  shapeCasts_S4x256_S4x256x1 : S4x256.ShapeCasts S4x256x1
  broadcasts_S4x256x1_S4x256x1024 : S4x256x1.Broadcasts S4x256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x1024_S1x1x1024 : S1x1024.ShapeCasts S1x1x1024
  broadcasts_S1x1x1024_S4x256x1024 : S1x1x1024.Broadcasts S4x256x1024
  hrank0 : 0 < grid0.rank
  k0_off1_inb : ∀ i : grid0.Coords, ∀ a, (k0_off1 i) a + S256x1024.size a ≤ S8192x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x1024.size a ≤ S4x8192x1024.size a
  hwx0_0 : ∀ i : grid0.Coords, EltTy.bits .f32 = 32 ∨ (Rect.block (s := S4x8192x1024) S4x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1024.size a ≤ S8192x1024.size a
  hwx0_1 : ∀ i : grid0.Coords, EltTy.bits .f32 = 32 ∨ (Rect.block (s := S8192x1024) S8192x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x1024.size a ≤ S4x8192x1024.size a
  hwx0_4 : ∀ i : grid0.Coords, EltTy.bits .f32 = 32 ∨ (Rect.block (s := S4x8192x1024) S4x256x1024.size (cc0_transform_4 i) (hinb0_4 i)).WholeWords (EltTy.packing .f32)

variable [Facts₀]

abbrev win0_0 : Pipeline.Window sig grid0 :=
  Pipeline.Window.ofSpec (Memref.whole main_arg0) S4x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S8192x1024 : Shape := ⟨2, ![8192, 1024]⟩
abbrev S1024 : Shape := ⟨1, ![1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S1, .i32⟩
  | .hbm, ⟨14, _⟩ => ⟨S_, .i32⟩
  | .hbm, ⟨15, _⟩ => ⟨S8192x1, .i32⟩
  | .hbm, ⟨16, _⟩ => ⟨S8192x1, .i1⟩
  | .hbm, ⟨17, _⟩ => ⟨S1x1, .i32⟩
  | .hbm, ⟨18, _⟩ => ⟨S8192x1, .i32⟩
  | .hbm, ⟨19, _⟩ => ⟨S8192x1, .i1⟩
  | .hbm, ⟨20, _⟩ => ⟨S8192x1, .i1⟩
  | .hbm, ⟨21, _⟩ => ⟨S_, .i1⟩
  | .hbm, ⟨22, _⟩ => ⟨S8192, .i1⟩
  | .hbm, ⟨23, _⟩ => ⟨S8192x1024, .f32⟩
  | .hbm, ⟨24, _⟩ => ⟨S8192x1024, .i1⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S1x8192x1024, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1024, .f32⟩
  | .hbm, ⟨47, _⟩ => ⟨S4x8192x1024, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x1, .f32⟩
  | .hbm, ⟨52, _⟩ => ⟨S4x8192x1024, .f32⟩
  | .hbm, ⟨53, _⟩ => ⟨S4x8192x1024, .f32⟩
  | .hbm, ⟨54, _⟩ => ⟨S1x1x1024, .f32⟩
  | .hbm, ⟨55, _⟩ => ⟨S4x8192x1024, .f32⟩
  | .hbm, ⟨56, _⟩ => ⟨S4x8192x1024, .f32⟩
  | .hbm, ⟨57, _⟩ => ⟨S1x1x1024, .f32⟩
  | .hbm, ⟨58, _⟩ => ⟨S4x8192x1024, .f32⟩
  | .hbm, ⟨59, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  bcast_S1x8192x1024_S4x8192x1024_0_1_2 : S1x8192x1024.BroadcastsInDim S4x8192x1024 (![0, 1, 2] : Fin 3 → Fin S4x8192x1024.rank)
  reducesTo_S4x8192x1024_S4x8192_d2 : S4x8192x1024.ReducesTo [2] S4x8192
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  gather_S8192x1024_S8192x1_S8192x1024_1_0_n_n_0_1_11024_wf : GatherDims.WF S8192x1024 S8192x1 S8192x1024 [1] [0] [] [0] [] 1 ![1, 1024]

variable [Facts₀]

def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf

class Facts : Prop extends Facts₀ where

variable [Facts]
-- ==== Proof.Spec.lean ====
/-
  The mathematics of this certificate, with no program in sight.

  Both programs take word embeddings `W : [4, 8192, 1024]`, a position table `P : [8192, 1024]` and two vectors
  `g, b : [1024]`, add row `r` of the table to row `r` of every batch element, and normalise each row `e` of 1024
  numbers: with `mean = (∑ e) / 1024`, `d = e - mean` and `var = (∑ d · d) / 1024`, entry `k` of the result is
  `d k / sqrt (var + ε) · g k + b k` (`normQuot`). One program writes the quotient as a product with the reciprocal
  square root, `d k · rsqrt (var + ε) · g k + b k` (`normProd`).

  Over the extended reals the two spellings agree wherever `var + ε` is above zero, the infinity included
  (`mul_rsqrt_eq_div_sqrt`), and `var + ε` IS above zero for every row, finite or not: a square `d · d` of an
  extended real is never negative (`⊥ · ⊥ = ⊤`), so neither is a sum of squares nor its 1024th part, and `ε` is a
  positive real (`rowVar_eps_pos`). So the two forms are one function of the row, with no finiteness asked of it
  (`normProd_eq_normQuot`).
-/
import Idealize.ShloMosaic.PureOps.Ideal
import Idealize.ShloMosaic.PureOps.Ideal.Laws
import Idealize.ShloMosaic.Lib.ValueIdx

noncomputable section

open scoped BigOperators

namespace Cert.EmbedNorm

open Idealize.ShloMosaic Idealize.ShloMosaic.ValueIdx

/-- The f32 word `1024.0` both programs divide a row's sum by; -/
abbrev cLen : EReal := Ideal.ofBits .f32 0x44800000#32
/-- and the f32 word nearest `1e-8` both add to the variance. -/
abbrev cEps : EReal := Ideal.ofBits .f32 0x322BCC77#32

/-- `1024.0` denotes the real 1024. -/
theorem cLen_eq : cLen = ((1024 : ℝ) : EReal) := by
  simp [Ideal.ofBits, Ideal.ieee, -EReal.coe_mul]; norm_num

/-- The word `0x322BCC77` denotes a positive real (`11258999 · 2^(-50)`). -/
theorem cEps_pos : 0 < cEps := by
  simp [Ideal.ofBits, Ideal.ieee, -EReal.coe_mul]

/-! ## One row -/

section Row
variable (e : Fin 1024 → EReal)

/-- A row's mean. -/
def rowMean : EReal := Ideal.div (∑ k : Fin 1024, e k) cLen

/-- An entry's deviation from its row's mean. -/
def rowDev (k : Fin 1024) : EReal := e k - rowMean e

/-- A row's variance: the mean of the squared deviations. -/
def rowVar : EReal := Ideal.div (∑ k : Fin 1024, rowDev e k * rowDev e k) cLen

/-- Entry `k` normalised, scaled by `gk` and shifted by `bk`, the quotient spelt as a quotient; -/
def normQuot (gk bk : EReal) (k : Fin 1024) : EReal :=
  Ideal.div (rowDev e k) (Ideal.sqrt (rowVar e + cEps)) * gk + bk

/-- and spelt as a product with the reciprocal square root. -/
def normProd (gk bk : EReal) (k : Fin 1024) : EReal :=
  rowDev e k * Ideal.rsqrt (rowVar e + cEps) * gk + bk

/-- A square of an extended real is not negative (`⊥ · ⊥ = ⊤`). -/
theorem mul_self_nonneg (x : EReal) : 0 ≤ x * x := by
  rcases le_total 0 x with h | h
  · exact EReal.mul_nonneg h h
  · exact EReal.mul_nonneg_iff.mpr (.inr ⟨h, h⟩)

/-- So a variance is not negative: a sum of squares times `1/1024`; -/
theorem rowVar_nonneg : 0 ≤ rowVar e := by
  unfold rowVar
  rw [cLen_eq, Ideal.div_coe (by norm_num)]
  exact EReal.mul_nonneg (Finset.sum_nonneg fun k _ => mul_self_nonneg _) (EReal.coe_nonneg.mpr (by norm_num))

/-- and a variance plus `ε` is above zero, whatever the row. -/
theorem rowVar_eps_pos : 0 < rowVar e + cEps :=
  Right.add_pos_of_nonneg_of_pos (rowVar_nonneg e) cEps_pos

end Row

/-- THE LAW that joins the two programs: above zero (at `⊤` too) the product with the reciprocal square root is the
    quotient by the square root. At a positive real both are the product with `(√e)⁻¹`; at `⊤` both are `d · 0`. -/
theorem mul_rsqrt_eq_div_sqrt (d e : EReal) (he : 0 < e) : d * Ideal.rsqrt e = Ideal.div d (Ideal.sqrt e) := by
  induction e using EReal.rec with
  | bot => exact absurd he (not_lt.mpr bot_le)
  | top => rw [Ideal.rsqrt_top, Ideal.sqrt_top, Ideal.div, if_neg EReal.top_ne_zero, EReal.inv_top]
  | coe r =>
    have hr : 0 < r := EReal.coe_pos.mp he
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

/-- The two spellings of a normalised entry are one number, for every row. -/
theorem normProd_eq_normQuot (e : Fin 1024 → EReal) (gk bk : EReal) (k : Fin 1024) :
    normProd e gk bk k = normQuot e gk bk k := by
  unfold normProd normQuot
  rw [mul_rsqrt_eq_div_sqrt _ _ (rowVar_eps_pos e)]

/-! ## The whole arrays -/

/-- The three argument shapes. -/
abbrev SW : Shape := ⟨3, ![4, 8192, 1024]⟩
abbrev SP : Shape := ⟨2, ![8192, 1024]⟩
abbrev SV : Shape := ⟨1, ![1024]⟩

section Fn
variable (W : SW.Idx → EReal) (P : SP.Idx → EReal) (g b : SV.Idx → EReal)

/-- Row `(a, r)` of the embedding: the word embedding plus the table's row for position `r`. -/
def embRow (a : Fin 4) (r : Fin 8192) : Fin 1024 → EReal := fun k => W (ix3 a r k) + P (ix2 r k)

/-- The result array as one function of the four argument arrays: each row of the embedding normalised, scaled by `g`
    and shifted by `b` along the row. -/
def G : SW.Idx → EReal :=
  fun i => normQuot (embRow W P (i 0) (i 1)) (g (ix1 (i 2))) (b (ix1 (i 2))) (i 2)

theorem G_ix3 (a : Fin 4) (r : Fin 8192) (k : Fin 1024) :
    G W P g b (ix3 a r k) = normQuot (embRow W P a r) (g (ix1 k)) (b (ix1 k)) k := rfl

end Fn

end Cert.EmbedNorm

end
-- ==== Proof.LibKeepdims3.lean ====
/-
  General lemmas: a rank-3 array `[a, b, c]` reduced along its last axis with the axis kept, and the layouts that
  bring rank-2 and rank-1 operands to it, each read at an index given by coordinates.

  `jnp.mean(x, axis=-1, keepdims=True)` of `x : [a, b, c]` is a reduction `[a, b, c] → [a, b]`, the kept axis put back
  `[a, b] → [a, b, 1]`, and, where the result meets `x` again, a broadcast `[a, b, 1] → [a, b, c]`; a matrix `[b, c]`
  meets `x` through `[b, c] → [1, b, c] → [a, b, c]`, a vector `[c]` through `[c] → [1, 1, c] → [a, b, c]` (in a kernel from a
  `[1, c]` block). Read at `(p, q, k)` these are the sum over `(p, q, ·)`, the matrix at `(q, k)`, the vector at `k`.
  First the kernel's spellings (`shapeCast`, `broadcastTo`, the lane `multiReduction`), then a host program's
  (`broadcastInDim` with its `dims` a variable, of which only the images of the operand's axes are asked; `Host.reduceAdd`).
-/
import Idealize.ShloMosaic.Lib.ValueLayout
import Idealize.ShloMosaic.PureOps.Ideal.Laws

noncomputable section

open scoped BigOperators

namespace Cert.Lib.Keepdims3

open Idealize.ShloMosaic Idealize.ShloMosaic.ValueIdx

section Layout
variable {α : Type}

/-! ## A kernel's layouts -/

/-- A `[1, b, c]` array broadcast to `[a, b, c]` reads, at `(p, q, k)`, its one slab at `(q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- An `[a, b]` array cast to `[a, b, 1]` (a kept last axis) reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, c]` array broadcast to `[a, b, c]` reads, at `(p, q, k)`, its one row at `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## A host program's layouts -/

/-- A matrix `[b, c]` broadcast to `[1, b, c]` (its axes sent to the last two) reads, at `(u, q, k)`, the matrix at `(q, k)`. -/
theorem broadcastInDim_bc_1bc_apply {b c : ℕ} (dims : Fin 2 → Fin 3)
    (h : (⟨2, ![b, c]⟩ : Shape).BroadcastsInDim ⟨3, ![1, b, c]⟩ dims) (hd0 : dims 0 = 1) (hd1 : dims 1 = 2)
    (v : (⟨2, ![b, c]⟩ : Shape).Idx → α) (u : Fin 1) (q : Fin b) (k : Fin c) :
    broadcastInDim ⟨3, ![1, b, c]⟩ dims h v (ix3 u q k) = v (ix2 q k) := by
  refine broadcastInDim_apply dims h v (ix3 u q k) (ix2 q k) fun ax => ?_
  match ax with
  | ⟨0, _⟩ =>
    show q.val = if b = 1 then 0 else (ix3 u q k (dims 0)).val
    rw [hd0]
    show q.val = if b = 1 then 0 else q.val
    split
    · have := q.isLt; omega
    · rfl
  | ⟨1, _⟩ =>
    show k.val = if c = 1 then 0 else (ix3 u q k (dims 1)).val
    rw [hd1]
    show k.val = if c = 1 then 0 else k.val
    split
    · have := k.isLt; omega
    · rfl

/-- A `[1, b, c]` array broadcast to `[a, b, c]`, axis to axis, reads, at `(p, q, k)`, its one slab at `(q, k)`. -/
theorem broadcastInDim_1bc_abc_apply {a b c : ℕ} (dims : Fin 3 → Fin 3)
    (h : (⟨3, ![1, b, c]⟩ : Shape).BroadcastsInDim ⟨3, ![a, b, c]⟩ dims) (hd1 : dims 1 = 1) (hd2 : dims 2 = 2)
    (v : (⟨3, ![1, b, c]⟩ : Shape).Idx → α) (p : Fin a) (q : Fin b) (k : Fin c) :
    broadcastInDim ⟨3, ![a, b, c]⟩ dims h v (ix3 p q k) = v (ix3 (0 : Fin 1) q k) := by
  refine broadcastInDim_apply dims h v (ix3 p q k) (ix3 (0 : Fin 1) q k) fun ax => ?_
  match ax with
  | ⟨0, _⟩ => rfl
  | ⟨1, _⟩ =>
    show q.val = if b = 1 then 0 else (ix3 p q k (dims 1)).val
    rw [hd1]
    show q.val = if b = 1 then 0 else q.val
    split
    · have := q.isLt; omega
    · rfl
  | ⟨2, _⟩ =>
    show k.val = if c = 1 then 0 else (ix3 p q k (dims 2)).val
    rw [hd2]
    show k.val = if c = 1 then 0 else k.val
    split
    · have := k.isLt; omega
    · rfl

/-- An `[a, b]` array broadcast to `[a, b, 1]` (a kept last axis) reads, at `(p, q, u)`, the operand at `(p, q)`. -/
theorem broadcastInDim_ab_ab1_apply {a b : ℕ} (dims : Fin 2 → Fin 3)
    (h : (⟨2, ![a, b]⟩ : Shape).BroadcastsInDim ⟨3, ![a, b, 1]⟩ dims) (hd0 : dims 0 = 0) (hd1 : dims 1 = 1)
    (v : (⟨2, ![a, b]⟩ : Shape).Idx → α) (p : Fin a) (q : Fin b) (u : Fin 1) :
    broadcastInDim ⟨3, ![a, b, 1]⟩ dims h v (ix3 p q u) = v (ix2 p q) := by
  refine broadcastInDim_apply dims h v (ix3 p q u) (ix2 p q) fun ax => ?_
  match ax with
  | ⟨0, _⟩ =>
    show p.val = if a = 1 then 0 else (ix3 p q u (dims 0)).val
    rw [hd0]
    show p.val = if a = 1 then 0 else p.val
    split
    · have := p.isLt; omega
    · rfl
  | ⟨1, _⟩ =>
    show q.val = if b = 1 then 0 else (ix3 p q u (dims 1)).val
    rw [hd1]
    show q.val = if b = 1 then 0 else q.val
    split
    · have := q.isLt; omega
    · rfl

/-- An `[a, b, 1]` array broadcast to `[a, b, c]`, axis to axis, reads, at `(p, q, k)`, the operand at `(p, q, 0)`. -/
theorem broadcastInDim_ab1_abc_apply {a b c : ℕ} (dims : Fin 3 → Fin 3)
    (h : (⟨3, ![a, b, 1]⟩ : Shape).BroadcastsInDim ⟨3, ![a, b, c]⟩ dims) (hd0 : dims 0 = 0) (hd1 : dims 1 = 1)
    (v : (⟨3, ![a, b, 1]⟩ : Shape).Idx → α) (p : Fin a) (q : Fin b) (k : Fin c) :
    broadcastInDim ⟨3, ![a, b, c]⟩ dims h v (ix3 p q k) = v (ix3 p q (0 : Fin 1)) := by
  refine broadcastInDim_apply dims h v (ix3 p q k) (ix3 p q (0 : Fin 1)) fun ax => ?_
  match ax with
  | ⟨0, _⟩ =>
    show p.val = if a = 1 then 0 else (ix3 p q k (dims 0)).val
    rw [hd0]
    show p.val = if a = 1 then 0 else p.val
    split
    · have := p.isLt; omega
    · rfl
  | ⟨1, _⟩ =>
    show q.val = if b = 1 then 0 else (ix3 p q k (dims 1)).val
    rw [hd1]
    show q.val = if b = 1 then 0 else q.val
    split
    · have := q.isLt; omega
    · rfl
  | ⟨2, _⟩ => rfl

/-- A vector `[c]` broadcast to `[1, 1, c]` (its axis sent to the last) reads, at `(u, u', k)`, the vector at `k`. -/
theorem broadcastInDim_c_11c_apply {c : ℕ} (dims : Fin 1 → Fin 3)
    (h : (⟨1, ![c]⟩ : Shape).BroadcastsInDim ⟨3, ![1, 1, c]⟩ dims) (hd0 : dims 0 = 2)
    (v : (⟨1, ![c]⟩ : Shape).Idx → α) (u u' : Fin 1) (k : Fin c) :
    broadcastInDim ⟨3, ![1, 1, c]⟩ dims h v (ix3 u u' k) = v (ix1 k) := by
  refine broadcastInDim_apply dims h v (ix3 u u' k) (ix1 k) fun ax => ?_
  match ax with
  | ⟨0, _⟩ =>
    show k.val = if c = 1 then 0 else (ix3 u u' k (dims 0)).val
    rw [hd0]
    show k.val = if c = 1 then 0 else k.val
    split
    · have := k.isLt; omega
    · rfl

/-- A `[1, 1, c]` array broadcast to `[a, b, c]`, axis to axis, reads, at `(p, q, k)`, its one row at `k`. -/
theorem broadcastInDim_11c_abc_apply {a b c : ℕ} (dims : Fin 3 → Fin 3)
    (h : (⟨3, ![1, 1, c]⟩ : Shape).BroadcastsInDim ⟨3, ![a, b, c]⟩ dims) (hd2 : dims 2 = 2)
    (v : (⟨3, ![1, 1, c]⟩ : Shape).Idx → α) (p : Fin a) (q : Fin b) (k : Fin c) :
    broadcastInDim ⟨3, ![a, b, c]⟩ dims h v (ix3 p q k) = v (ix3 (0 : Fin 1) (0 : Fin 1) k) := by
  refine broadcastInDim_apply dims h v (ix3 p q k) (ix3 (0 : Fin 1) (0 : Fin 1) k) fun ax => ?_
  match ax with
  | ⟨0, _⟩ => rfl
  | ⟨1, _⟩ => rfl
  | ⟨2, _⟩ =>
    show k.val = if c = 1 then 0 else (ix3 p q k (dims 2)).val
    rw [hd2]
    show k.val = if c = 1 then 0 else k.val
    split
    · have := k.isLt; omega
    · rfl

end Layout

/-! ## The two sums along the last axis, at the ideal values -/

/-- A kernel's lane reduction by addition of an `[a, b, c]` array along its last axis, read at `(p, q)`: the sum over
    `(p, q, ·)`. The accumulator's word is the neutral one, so it contributes nothing. -/
theorem multiReduction_add_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun ax => Fin.ext ?_)
  match ax with
  | ⟨0, _⟩ => rfl
  | ⟨1, _⟩ => rfl
  | ⟨2, _⟩ => rfl

/-- The host's sum of an `[a, b, c]` array along its last axis, read at `(p, q)`: the initial value plus the sum over
    `(p, q, ·)`. -/
theorem hostReduceAdd_last_apply {a b c : ℕ} {φ : FTy} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduceAdd x init h' hu (ix2 p q) = init (Shape.Idx.first hu) + ∑ k : Fin c, x (ix3 p q k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl
  | ⟨2, _⟩ => rfl

end Cert.Lib.Keepdims3

end
-- ==== Proof.KernelPayload.lean ====
/-
  What the kernel's body stores, read at an index of its block.

  The body loads a `[4, 256, 1024]` block `x0` of word embeddings, a `[256, 1024]` slab `v3` of the position table and
  the two `[1, 1024]` vectors, and stores one `[4, 256, 1024]` value. At `(a, q, k)` that value depends on row `(a, q, ·)`
  of `x0`, row `(q, ·)` of `v3` and entry `k` of the vectors only: it is that row's embedding `x0 + v3` normalised in the
  product spelling (`normProd`). The pieces: the slab brought to the block's shape, a row sum kept and divided by 1024,
  the reciprocal square root of such a kept mean plus `ε`, a vector brought to the block's shape; then the body's
  pointwise operations pass the index through.
-/
import proofs.«158726_g75977971466584_fold_wed_m_535_16_alg».proof.Proof.Gen.KernelIdeal.Skeleton
import proofs.«158726_g75977971466584_fold_wed_m_535_16_alg».proof.Proof.Spec
import proofs.«158726_g75977971466584_fold_wed_m_535_16_alg».proof.Proof.LibKeepdims3
import Idealize.ShloMosaic.Lib.ValueLayout
import Idealize.ShloMosaic.Lib.Pipeline.Value

noncomputable section

open scoped BigOperators

namespace Cert.KernelIdeal.Payload

open Cert.KernelIdeal Cert.KernelIdeal.Gen Cert.EmbedNorm Cert.Lib.Keepdims3
open Idealize.ShloMosaic Idealize.ShloMosaic.ValueIdx

/-- The table's slab `[256, 1024]`, cast to itself, given a leading unit axis and broadcast over the batch, reads at
    `(a, q, k)` the slab at `(q, k)`. -/
theorem slab_apply (v3 : FVec Ideal S256x1024 .f32) (h1 : S256x1024.ShapeCasts S256x1024)
    (h2 : S256x1024.ShapeCasts S1x256x1024) (h3 : S1x256x1024.Broadcasts S4x256x1024)
    (a : Fin 4) (q : Fin 256) (k : Fin 1024) :
    broadcastTo S4x256x1024 (shapeCast S1x256x1024 (shapeCast S256x1024 v3 h1) h2) h3 (ix3 a q k) = v3 (ix2 q k) := by
  rw [shapeCast_self]
  exact (broadcastTo_1bc_abc_apply _ h3 a q k).trans (shapeCast_ab_1ab_apply v3 h2 0 q k)

/-- A block's row sums, kept as a last unit axis, divided by the word `1024.0` and broadcast back along the row: at
    `(a, q, k)` the sum over row `(a, q, ·)` divided by 1024. -/
theorem keptMean_apply (src : FVec Ideal S4x256x1024 .f32) (hr : S4x256x1024.Reduces [2] S4x256)
    (hφ : FKind.Formats .f32) (hacc : (0x00000000#32 : BitVec 32) = 0x00000000#32)
    (hc : S4x256.ShapeCasts S4x256x1) (hb : S4x256x1.Broadcasts S4x256x1024) (a : Fin 4) (q : Fin 256) (k : Fin 1024) :
    broadcastTo S4x256x1024 (divf (shapeCast S4x256x1 (multiReduction .add [2] S4x256 src 0x00000000#32 hr hφ hacc) hc)
        (broadcast S4x256x1 (Scalar.ofBits .f32 0x44800000#32))) hb (ix3 a q k)
      = Ideal.div (∑ k' : Fin 1024, src (ix3 a q k')) cLen := by
  refine (broadcastTo_ab1_abc_apply _ hb a q k).trans ?_
  show Ideal.div (shapeCast S4x256x1 (multiReduction .add [2] S4x256 src 0x00000000#32 hr hφ hacc) hc (ix3 a q (0 : Fin 1))) cLen = _
  exact congrArg (Ideal.div · cLen)
    ((shapeCast_ab_ab1_apply _ hc a q 0).trans (multiReduction_add_last_apply src _ hr hφ hacc a q))

/-- The reciprocal square root of such a kept mean plus the word of `ε`, broadcast back along the row. -/
theorem keptRsqrt_apply (src : FVec Ideal S4x256x1024 .f32) (hr : S4x256x1024.Reduces [2] S4x256)
    (hφ : FKind.Formats .f32) (hacc : (0x00000000#32 : BitVec 32) = 0x00000000#32)
    (hc : S4x256.ShapeCasts S4x256x1) (hb : S4x256x1.Broadcasts S4x256x1024) (a : Fin 4) (q : Fin 256) (k : Fin 1024) :
    broadcastTo S4x256x1024 (rsqrt (addf (divf (shapeCast S4x256x1 (multiReduction .add [2] S4x256 src 0x00000000#32 hr hφ hacc) hc)
        (broadcast S4x256x1 (Scalar.ofBits .f32 0x44800000#32))) (broadcast S4x256x1 (Scalar.ofBits .f32 0x322BCC77#32)))) hb (ix3 a q k)
      = Ideal.rsqrt (Ideal.div (∑ k' : Fin 1024, src (ix3 a q k')) cLen + cEps) := by
  refine (broadcastTo_ab1_abc_apply _ hb a q k).trans ?_
  show Ideal.rsqrt (Ideal.div (shapeCast S4x256x1 (multiReduction .add [2] S4x256 src 0x00000000#32 hr hφ hacc) hc (ix3 a q (0 : Fin 1))) cLen + cEps) = _
  exact congrArg (fun s => Ideal.rsqrt (Ideal.div s cLen + cEps))
    ((shapeCast_ab_ab1_apply _ hc a q 0).trans (multiReduction_add_last_apply src _ hr hφ hacc a q))

/-- A `[1, 1024]` vector, cast to itself, given a leading unit axis and broadcast over the block, reads at `(a, q, k)`
    the vector at `k`. -/
theorem vec_apply (v : FVec Ideal S1x1024 .f32) (h1 : S1x1024.ShapeCasts S1x1024) (h2 : S1x1024.ShapeCasts S1x1x1024)
    (h3 : S1x1x1024.Broadcasts S4x256x1024) (a : Fin 4) (q : Fin 256) (k : Fin 1024) :
    broadcastTo S4x256x1024 (shapeCast S1x1x1024 (shapeCast S1x1024 v h1) h2) h3 (ix3 a q k) = v (ix2 (0 : Fin 1) k) := by
  rw [shapeCast_self]
  exact (broadcastTo_11c_abc_apply _ h3 a q k).trans (shapeCast_ab_1ab_apply v h2 0 0 k)

/-- A block minus its kept row means: where row `(a, q, ·)` of the block is the row `e`, entry `(a, q, k)` is `e`'s deviation
    from its mean at `k`. -/
theorem dev_apply (X : FVec Ideal S4x256x1024 .f32) (hr : S4x256x1024.Reduces [2] S4x256)
    (hφ : FKind.Formats .f32) (hacc : (0x00000000#32 : BitVec 32) = 0x00000000#32)
    (hc : S4x256.ShapeCasts S4x256x1) (hb : S4x256x1.Broadcasts S4x256x1024) (a : Fin 4) (q : Fin 256)
    (e : Fin 1024 → EReal) (hX : ∀ k' : Fin 1024, X (ix3 a q k') = e k') (k : Fin 1024) :
    subf X (broadcastTo S4x256x1024 (divf (shapeCast S4x256x1 (multiReduction .add [2] S4x256 X 0x00000000#32 hr hφ hacc) hc)
        (broadcast S4x256x1 (Scalar.ofBits .f32 0x44800000#32))) hb) (ix3 a q k) = rowDev e k := by
  rw [subf_apply, keptMean_apply, hX]
  unfold rowDev rowMean
  simp only [hX]

/-- A block of deviations times the kept reciprocal square root of their mean square plus `ε`: where row `(a, q, ·)` of
    the block is `d`, entry `(a, q, k)` is `d k · rsqrt ((∑ d · d) / 1024 + ε)`. -/
theorem scaled_apply (D : FVec Ideal S4x256x1024 .f32) (hr : S4x256x1024.Reduces [2] S4x256)
    (hφ : FKind.Formats .f32) (hacc : (0x00000000#32 : BitVec 32) = 0x00000000#32)
    (hc : S4x256.ShapeCasts S4x256x1) (hb : S4x256x1.Broadcasts S4x256x1024) (a : Fin 4) (q : Fin 256)
    (d : Fin 1024 → EReal) (hD : ∀ k' : Fin 1024, D (ix3 a q k') = d k') (k : Fin 1024) :
    mulf D (broadcastTo S4x256x1024 (rsqrt (addf (divf (shapeCast S4x256x1 (multiReduction .add [2] S4x256 (mulf D D) 0x00000000#32 hr hφ hacc) hc)
        (broadcast S4x256x1 (Scalar.ofBits .f32 0x44800000#32))) (broadcast S4x256x1 (Scalar.ofBits .f32 0x322BCC77#32)))) hb) (ix3 a q k)
      = d k * Ideal.rsqrt (Ideal.div (∑ k' : Fin 1024, d k' * d k') cLen + cEps) := by
  rw [mulf_apply, keptRsqrt_apply, hD]
  simp only [mulf_apply, hD]

/-- THE BODY'S STORED VALUE at `(a, q, k)`: row `(a, q, ·)` of `x0` plus row `(q, ·)` of the slab, normalised in the product
    spelling, scaled and shifted by entry `k` of the two vectors. -/
theorem pay_apply (x0 : FVec Ideal S4x256x1024 .f32) (v3 : FVec Ideal S256x1024 .f32) (v24 v29 : FVec Ideal S1x1024 .f32)
    (a : Fin 4) (q : Fin 256) (k : Fin 1024) :
    k0_pay1 (F := Ideal) x0 v3 v24 v29 (ix3 a q k)
      = normProd (fun k' => x0 (ix3 a q k') + v3 (ix2 q k')) (v24 (ix2 (0 : Fin 1) k)) (v29 (ix2 (0 : Fin 1) k)) k := by
  have hX : ∀ k' : Fin 1024, addf x0 (broadcastTo S4x256x1024 (shapeCast S1x256x1024 (shapeCast S256x1024 v3
      shapeCasts_S256x1024_S256x1024) shapeCasts_S256x1024_S1x256x1024) broadcasts_S1x256x1024_S4x256x1024) (ix3 a q k')
        = (fun k' => x0 (ix3 a q k') + v3 (ix2 q k')) k' :=
    fun k' => congrArg (x0 (ix3 a q k') + ·) (slab_apply v3 _ _ _ a q k')
  unfold k0_pay1 normProd rowVar
  dsimp only
  rw [addf_apply, mulf_apply, vec_apply, vec_apply,
    scaled_apply _ _ _ _ _ _ a q _ (fun k' => dev_apply _ _ _ _ _ _ a q _ hX k') k]

end Cert.KernelIdeal.Payload

end
-- ==== Proof.KernelBlocks.lean ====
/-
  From the kernel's blocks to its result array.

  The grid has 32 points; at point `t` the body finds rows `256 t … 256 t + 255` of every batch element of the word
  embeddings in one buffer, the whole position table in another (it loads rows `256 t …` of it itself), the two vectors
  as `[1, 1024]` rows, and writes back rows `256 t … 256 t + 255` of every batch element of the result.
  So what point `t` writes back is block `t` of ONE function of the argument arrays, `G` (`flushed_eq`): at `(a, q, k)` of
  the block the body's value is row `(a, 256 t + q)` of the embedding normalised in the product spelling, which is `G`
  at `(a, 256 t + q, k)` in the quotient spelling (`normProd_eq_normQuot`). The 32 blocks tile the array — row `r` is in
  block `r / 256` (`covered`) — so the result array ends holding `G` (`final`, `run`).
-/
import proofs.«158726_g75977971466584_fold_wed_m_535_16_alg».proof.Proof.Gen.KernelIdeal.Value
import proofs.«158726_g75977971466584_fold_wed_m_535_16_alg».proof.Proof.KernelPayload
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Blocks

open Cert.KernelIdeal Cert.KernelIdeal.Gen Cert.EmbedNorm Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

section AnyValues
variable {F : FTy → Type} [FloatOps F]

/-- WHAT THE BODY LEAVES in the output's buffer, at any values: its one store's payload, of the first buffer's contents,
    of rows `k0_off1 i …` of the second buffer's, and of the two vectors'. -/
theorem out_A (c : Dev nD) (i : grid0.Coords) (a1 : Memref sig .tc .vmem S4x256x1024 .f32) (h1 : a1.IsWhole)
    (a2 : Memref sig .tc .vmem S8192x1024 .f32) (h2 : a2.IsWhole) (a3 : Memref sig .tc .vmem S1x1024 .f32) (h3 : a3.IsWhole)
    (a4 : Memref sig .tc .vmem S1x1024 .f32) (h4 : a4.IsWhole) (a5 : Memref sig .tc .vmem S4x256x1024 .f32) (h5 : a5.IsWhole)
    (x0 : Vec F S4x256x1024 .f32) (x1 : Vec F S8192x1024 .f32) (x2 x3 : Vec F S1x1024 .f32) :
    out0_A_4 c i a1 h1 a2 h2 a3 h3 a4 h4 a5 h5 x0 x1 x2 x3
      = k0_pay1 x0 (View.ld x1 (Rect.unit (s := S8192x1024) (k0_off1 i) S256x1024.size (k0_off1_inb i))) x2 x3 := by
  unfold out0_A_4
  rw [View.read_writes_eq_canon _ _ _ (cover0_A_4 c i a1 h1 a2 h2 a3 h3 a4 h4 a5 h5 x0 x1 x2 x3)]
  unfold kernelRun0_A
  dsimp only
  rw [View.canon_unit_zero hz3]
  simp only [View.readAt_eq_ld, h1.read_unread, h2.read_unread, h3.read_unread, h4.read_unread,
    View.ld_unit_zero (S := S4x256x1024) hz3, View.ld_unit_zero (S := S1x1024) hz2]

end AnyValues

/-- ONE POINT, over variables: if the first buffer holds rows `256 T …` of every batch element of `W`, the second the
    table `P`, the two rows `g` and `b`, and the body's own load starts at row `256 T`, then the body's value at an index
    `y` of the block is `G` at the array index `i` that is `y` moved `256 T` rows down. -/
theorem point_eq (W : SW.Idx → EReal) (P : SP.Idx → EReal) (g b : SV.Idx → EReal)
    (x0 : FVec Ideal S4x256x1024 .f32) (x1 : FVec Ideal S8192x1024 .f32) (x2 x3 : FVec Ideal S1x1024 .f32)
    (off : Fin 2 → Nat) (inb : ∀ a, off a + S256x1024.size a ≤ S8192x1024.size a) (T : Nat)
    (h0 : ∀ (a : Fin 4) (q : Fin 256) (k : Fin 1024) (r : Fin 8192), r.val = 256 * T + q.val → x0 (ix3 a q k) = W (ix3 a r k))
    (h1 : ∀ (r : Fin 8192) (k : Fin 1024), x1 (ix2 r k) = P (ix2 r k))
    (h2 : ∀ k : Fin 1024, x2 (ix2 (0 : Fin 1) k) = g (ix1 k)) (h3 : ∀ k : Fin 1024, x3 (ix2 (0 : Fin 1) k) = b (ix1 k))
    (hoff0 : off 0 = 256 * T) (hoff1 : off 1 = 0)
    (a : Fin 4) (q : Fin 256) (k : Fin 1024) (r : Fin 8192) (hr : r.val = 256 * T + q.val) :
    k0_pay1 (F := Ideal) x0 (View.ld x1 (Rect.unit (s := S8192x1024) off S256x1024.size inb)) x2 x3 (ix3 a q k)
      = G W P g b (ix3 a r k) := by
  rw [Payload.pay_apply, normProd_eq_normQuot, G_ix3, h2, h3]
  refine congrArg (fun e => normQuot e (g (ix1 k)) (b (ix1 k)) k) (funext fun k' => ?_)
  show x0 (ix3 a q k') + x1 ((Rect.unit (s := S8192x1024) off S256x1024.size inb).idx (ix2 q k')) = W (ix3 a r k') + P (ix2 r k')
  rw [h0 a q k' r hr, ← h1 r k']
  refine congrArg (W (ix3 a r k') + x1 ·) (funext fun ax => Fin.ext ?_)
  match ax with
  | ⟨0, _⟩ => show off 0 + 1 * q.val = r.val; omega
  | ⟨1, _⟩ => show off 1 + 1 * k'.val = k'.val; omega

/-! ## The arrays as the region finds them -/

section Run
variable (m : (ℓ : Loc nD τ sig) → Buf (Elt Ideal) ℓ) (ρ : Dev nD → PrngReg)

/-- The four argument arrays as launched, typed as the functions of an index they are. -/
abbrev argW (c : Dev nD) : SW.Idx → EReal := m ((c : Thread nD τ).loc main_arg0)
abbrev argP (c : Dev nD) : SP.Idx → EReal := m ((c : Thread nD τ).loc main_arg1)
abbrev argG (c : Dev nD) : SV.Idx → EReal := m ((c : Thread nD τ).loc main_arg2)
abbrev argB (c : Dev nD) : SV.Idx → EReal := m ((c : Thread nD τ).loc main_arg3)

/-- The table the region finds is the host's whole-array slice of the argument: the argument itself, index by index. -/
theorem V_table (c : Dev nD) (r : Fin 8192) (k : Fin 1024) :
    (V m c main_v0 : S8192x1024.Idx → EReal) (ix2 r k) = argP m c (ix2 r k) := by
  have e : (V m c main_v0 : S8192x1024.Idx → EReal)
      = extractStridedSlice S8192x1024 ![0, 0] (argP m c) slices_S8192x1024_S8192x1024_0_0 := by
    dsimp only [Gen.V, Gen.hostOps0]; after_results
  rw [e]
  refine extractStridedSlice_apply _ _ _ _ _ fun ax => ?_
  match ax with
  | ⟨0, _⟩ => show r.val = 0 + r.val; omega
  | ⟨1, _⟩ => show k.val = 0 + k.val; omega

/-- The two `[1, 1024]` rows the region finds are the host's reshapes of the two vectors. -/
theorem V_scale (c : Dev nD) (k : Fin 1024) :
    (V m c main_v1 : S1x1024.Idx → EReal) (ix2 (0 : Fin 1) k) = argG m c (ix1 k) := by
  have e : (V m c main_v1 : S1x1024.Idx → EReal) = shapeCast S1x1024 (argG m c) shapeCasts_S1024_S1x1024 := by
    dsimp only [Gen.V, Gen.hostOps0]; after_results; rfl
  rw [e]
  exact shapeCast_a_1a_apply _ _ 0 k
theorem V_shift (c : Dev nD) (k : Fin 1024) :
    (V m c main_v2 : S1x1024.Idx → EReal) (ix2 (0 : Fin 1) k) = argB m c (ix1 k) := by
  have e : (V m c main_v2 : S1x1024.Idx → EReal) = shapeCast S1x1024 (argB m c) shapeCasts_S1024_S1x1024 := by
    dsimp only [Gen.V, Gen.hostOps0]; after_results; rfl
  rw [e]
  exact shapeCast_a_1a_apply _ _ 0 k

/-! ## The blocks -/

/-- The printed index maps and the body's own row offset, decided over the 32 points: the word embeddings' and the
    result's blocks move down the rows with the point, the other three windows stay at block 0, and the body loads the
    table from row `256 t`. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0
    ∧ k0_off1 (grid0.coords t) (0 : Fin 2) = 256 * t.val ∧ k0_off1 (grid0.coords t) (1 : Fin 2) = 0 :=
  (by decide +kernel : ∀ t : Fin grid0.N, _)

/-- What point `t` writes back is the body's value of the four windows' blocks at `t`, the table's loaded from the
    body's own row offset. -/
theorem flushed_pay (c : Dev nD) (t : Fin cfg0.N) :
    (dats m 0 c).flushed 4 t = (cfg0.win 4).cut (grid0.coords t)
      (k0_pay1 (iblk m c 0 t) (View.ld (iblk m c 1 t) (Rect.unit (s := S8192x1024) (k0_off1 (grid0.coords t)) S256x1024.size
        (k0_off1_inb (grid0.coords t)))) (iblk m c 2 t) (iblk m c 3 t)) :=
  (Value.flushed4_A m c t).trans (congrArg ((cfg0.win 4).cut (grid0.coords t))
    (out_A c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (iblk m c 3 t)))

/-- The word embeddings' block at point `t` is rows `256 t … 256 t + 255` of every batch element. -/
theorem iblk0_apply (c : Dev nD) (t : Fin cfg0.N) (a : Fin 4) (q : Fin 256) (k : Fin 1024) (r : Fin 8192)
    (hr : r.val = 256 * t.val + q.val) :
    (iblk m c 0 t : S4x256x1024.Idx → EReal) (ix3 a q k) = argW m c (ix3 a r k) := by
  obtain ⟨e00, e01, e02, -⟩ := idx_facts t
  unfold iblk
  rw [View.read_apply]
  show V m c main_arg0 _ = argW m c (ix3 a r k)
  rw [V_main_arg0]
  refine congrArg (argW m c) (funext fun ax => Fin.ext ?_)
  match ax with
  | ⟨0, _⟩ => show win0_0.index t (0 : Fin 3) * 4 + 1 * a.val = a.val; omega
  | ⟨1, _⟩ => show win0_0.index t (1 : Fin 3) * 256 + 1 * q.val = r.val; omega
  | ⟨2, _⟩ => show win0_0.index t (2 : Fin 3) * 1024 + 1 * k.val = k.val; omega

/-- The table's block at every point is the whole table. -/
theorem iblk1_apply (c : Dev nD) (t : Fin cfg0.N) (r : Fin 8192) (k : Fin 1024) :
    (iblk m c 1 t : S8192x1024.Idx → EReal) (ix2 r k) = argP m c (ix2 r k) := by
  obtain ⟨-, -, -, e10, e11, -⟩ := idx_facts t
  unfold iblk
  rw [View.read_apply, ← V_table m c r k]
  show V m c main_v0 _ = V m c main_v0 (ix2 r k)
  refine congrArg (V m c main_v0 : S8192x1024.Idx → EReal) (funext fun ax => Fin.ext ?_)
  match ax with
  | ⟨0, _⟩ => show win0_1.index t (0 : Fin 2) * 8192 + 1 * r.val = r.val; omega
  | ⟨1, _⟩ => show win0_1.index t (1 : Fin 2) * 1024 + 1 * k.val = k.val; omega

/-- The two rows' blocks at every point are the two vectors. -/
theorem iblk2_apply (c : Dev nD) (t : Fin cfg0.N) (k : Fin 1024) :
    (iblk m c 2 t : S1x1024.Idx → EReal) (ix2 (0 : Fin 1) k) = argG m c (ix1 k) := by
  obtain ⟨-, -, -, -, -, e20, e21, -⟩ := idx_facts t
  unfold iblk
  rw [View.read_apply, ← V_scale m c k]
  show V m c main_v1 _ = V m c main_v1 (ix2 (0 : Fin 1) k)
  refine congrArg (V m c main_v1 : S1x1024.Idx → EReal) (funext fun ax => Fin.ext ?_)
  match ax with
  | ⟨0, _⟩ => show win0_2.index t (0 : Fin 2) * 1 + 1 * 0 = 0; omega
  | ⟨1, _⟩ => show win0_2.index t (1 : Fin 2) * 1024 + 1 * k.val = k.val; omega
theorem iblk3_apply (c : Dev nD) (t : Fin cfg0.N) (k : Fin 1024) :
    (iblk m c 3 t : S1x1024.Idx → EReal) (ix2 (0 : Fin 1) k) = argB m c (ix1 k) := by
  obtain ⟨-, -, -, -, -, -, -, e30, e31, -⟩ := idx_facts t
  unfold iblk
  rw [View.read_apply, ← V_shift m c k]
  show V m c main_v2 _ = V m c main_v2 (ix2 (0 : Fin 1) k)
  refine congrArg (V m c main_v2 : S1x1024.Idx → EReal) (funext fun ax => Fin.ext ?_)
  match ax with
  | ⟨0, _⟩ => show win0_3.index t (0 : Fin 2) * 1 + 1 * 0 = 0; omega
  | ⟨1, _⟩ => show win0_3.index t (1 : Fin 2) * 1024 + 1 * k.val = k.val; omega

/-- An index `(a, q, k)` of the result's block at point `t` is the array's index `(a, 256 t + q, k)`. -/
theorem emb4_apply (t : Fin cfg0.N) (a : Fin 4) (q : Fin 256) (k : Fin 1024) (r : Fin 8192) (hr : r.val = 256 * t.val + q.val) :
    (((cfg0.win 4).blk t).view.emb (ix3 a q k) : S4x8192x1024.Idx) = ix3 a r k := by
  obtain ⟨-, -, -, -, -, -, -, -, -, e40, e41, e42, -⟩ := idx_facts t
  funext ax; apply Fin.ext
  match ax with
  | ⟨0, _⟩ => show win0_4.index t (0 : Fin 3) * 4 + 1 * a.val = a.val; omega
  | ⟨1, _⟩ => show win0_4.index t (1 : Fin 3) * 256 + 1 * q.val = r.val; omega
  | ⟨2, _⟩ => show win0_4.index t (2 : Fin 3) * 1024 + 1 * k.val = k.val; omega

/-- WHAT POINT `t` WRITES BACK is block `t` of `G` of the four arguments. -/
theorem flushed_eq (c : Dev nD) (t : Fin cfg0.N) :
    (dats m 0 c).flushed 4 t
      = ((cfg0.win 4).blk t).view.read (Elt Ideal) (G (argW m c) (argP m c) (argG m c) (argB m c)) := by
  have hN : cfg0.N = 32 := N_0
  have ht : t.val < 32 := hN ▸ t.isLt
  obtain ⟨-, -, -, -, -, -, -, -, -, -, -, -, eo0, eo1⟩ := idx_facts t
  rw [flushed_pay]
  funext y
  obtain ⟨a, q, k, rfl⟩ : ∃ (a : Fin 4) (q : Fin 256) (k : Fin 1024), y = ix3 a q k :=
    ⟨y 0, y 1, y 2, eq_ix3 (n0 := 4) (n1 := 256) (n2 := 1024) y⟩
  have hr : 256 * t.val + q.val < 8192 := by have := q.isLt; omega
  show k0_pay1 (F := Ideal) (iblk m c 0 t) (View.ld (iblk m c 1 t) (Rect.unit (s := S8192x1024) (k0_off1 (grid0.coords t)) S256x1024.size
        (k0_off1_inb (grid0.coords t)))) (iblk m c 2 t) (iblk m c 3 t) (ix3 a q k)
    = G (argW m c) (argP m c) (argG m c) (argB m c) (((cfg0.win 4).blk t).view.emb (ix3 a q k))
  rw [emb4_apply t a q k ⟨256 * t.val + q.val, hr⟩ rfl]
  exact point_eq (argW m c) (argP m c) (argG m c) (argB m c) (iblk m c 0 t) (iblk m c 1 t) (iblk m c 2 t) (iblk m c 3 t)
    (k0_off1 (grid0.coords t)) (k0_off1_inb (grid0.coords t)) t.val
    (fun a' q' k' r' hr' => iblk0_apply m c t a' q' k' r' hr') (fun r' k' => iblk1_apply m c t r' k')
    (fun k' => iblk2_apply m c t k') (fun k' => iblk3_apply m c t k') eo0 eo1 a q k ⟨256 * t.val + q.val, hr⟩ rfl

/-- An index of the array is in point `t`'s block iff each coordinate is in the block's range on its axis. -/
theorem mem_blk (t : Fin cfg0.N) (i : S4x8192x1024.Idx) :
    i ∈ ((cfg0.win 4).blk t).view.set ↔ ∀ ax : Fin 3, win0_4.index t ax * S4x256x1024.size ax ≤ (i ax).val
      ∧ (i ax).val < win0_4.index t ax * S4x256x1024.size ax + S4x256x1024.size ax := by
  show i ∈ ((View.whole main_v3).slice (win0_4.rect t)).set ↔ _
  rw [View.set_slice_whole, Rect.mem_set_unit]
  exact Iff.rfl

/-- THE BLOCKS TILE THE ARRAY: row `r` of any batch element lies in the block of point `r / 256`. -/
theorem covered (i : S4x8192x1024.Idx) :
    ∃ t : Fin cfg0.N, (cfg0.win 4).flush t = true ∧ i ∈ ((cfg0.win 4).blk t).view.set := by
  have hN : cfg0.N = 32 := N_0
  have h0 : (i 0).val < 4 := (i 0).isLt
  have h1 : (i 1).val < 8192 := (i 1).isLt
  have h2 : (i 2).val < 1024 := (i 2).isLt
  let t : Fin cfg0.N := ⟨(i 1).val / 256, by rw [hN]; omega⟩
  have htv : t.val = (i 1).val / 256 := rfl
  obtain ⟨-, -, -, -, -, -, -, -, -, e40, e41, e42, -, -⟩ := idx_facts t
  refine ⟨t, flush0_4 t, ?_⟩
  rw [mem_blk]
  intro ax
  match ax with
  | ⟨0, _⟩ => show win0_4.index t (0 : Fin 3) * 4 ≤ (i 0).val ∧ (i 0).val < win0_4.index t (0 : Fin 3) * 4 + 4; omega
  | ⟨1, _⟩ => show win0_4.index t (1 : Fin 3) * 256 ≤ (i 1).val ∧ (i 1).val < win0_4.index t (1 : Fin 3) * 256 + 256; omega
  | ⟨2, _⟩ => show win0_4.index t (2 : Fin 3) * 1024 ≤ (i 2).val ∧ (i 2).val < win0_4.index t (2 : Fin 3) * 1024 + 1024; omega

/-- So the result array ends holding `G` of the four arguments. -/
theorem final (c : Dev nD) :
    (dats m 0 c).arrAt 4 cfg0.N = G (argW m c) (argP m c) (argG m c) (argB m c) :=
  (dats m 0 c).arrAt_eq_of_cover 4 (G (argW m c) (argP m c) (argG m c) (argB m c)) (fun t _ => flushed_eq m c t) covered

/-- THE RUN, read: every weakly fair execution of the kernel's @main terminates with the result array at `G` of the four
    arguments' launch contents, and the arguments unchanged. -/
theorem run : θ_run defs (onTc (τ := τ) (main (F := Ideal))) ⟨m, fun _ => 0, ρ⟩ fun r => ∀ c : Dev nD,
      r.2.mem ((c : Thread nD τ).loc main_v3) = G (argW m c) (argP m c) (argG m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Run

end Cert.KernelIdeal.Blocks

end
-- ==== Proof.RefRun.lean ====
/-
  The reference program's run, written out.

  The reference's @main calls one outlined function (the table lookup `jnp.take`, which itself calls `jnp.where`), so it
  is a straight line of 56 host operations once the two bodies are unfolded at their calls: the position indices
  `0 … 8191`, the lookup's 23 operations over them (negative indices wrapped, the rows gathered, rows whose index was out
  of range replaced by a NaN), and the 32 operations of the embedding sum and the layer normalisation. `ops` lists them in
  order over the call's buffers; `main_eq` says @main is that list run in sequence; `run_main` is the library's run of
  such a list: every buffer ends at the list's fold over the launch contents.

  `refOut` names what the fold leaves in the result buffer as a composition of a few stages (`refTake`, `refEmb`,
  `refKeptMean`, `refDev`), each a function of the arrays before it, so that a later module reads them at an index one
  stage at a time; `run` is the run with the result buffer at `refOut` of the four arguments and the arguments unchanged.
-/
import proofs.«158726_g75977971466584_fold_wed_m_535_16_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 56 operations, in order: the iota; the lookup's (its `where` is the one `select` after the `add`); the rest. -/
abbrev ops : List (HloOp τ sig (Elt F)) :=
  [ nullary main_v0 (iotaInDim S8192 32 0),
    TRef.nullary main_call0.c (constantI S_ 32 0#32),
    TRef.unary main_call0.c main_call0.v0 (broadcastInDim S8192 ![] bcast_S_S8192),
    TRef.binary (.of main_v0) main_call0.v0 main_call0.v1 (cmpi .slt),
    TRef.nullary main_call0.c_0 (constantI S_ 32 8192#32),
    TRef.unary main_call0.c_0 main_call0.v2 (broadcastInDim S8192 ![] bcast_S_S8192),
    TRef.binary (.of main_v0) main_call0.v2 main_call0.v3 addi,
    TRef.ternary main_call0.v1 main_call0.v3 (.of main_v0) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8192x1024_S8192x1_S8192x1024_1_0_n_n_0_1_11024 x i),
    TRef.unary main_call0.v12 main_call0.v14 (broadcastInDim S8192x1024 ![0] bcast_S8192_S8192x1024_0),
    TRef.nullary main_call0.cst (constant S_ .f32 0x7FC00000#32),
    TRef.unary main_call0.cst main_call0.v15 (broadcastInDim S8192x1024 ![] bcast_S_S8192x1024),
    TRef.ternary main_call0.v14 main_call0.v13 main_call0.v15 main_call0.v16 select,
    unary main_v1 main_v2 (broadcastInDim S1x8192x1024 ![1, 2] bcast_S8192x1024_S1x8192x1024_1_2 : (⟨S8192x1024, .f32⟩ : BufTy).Contents (Elt F) → (⟨S1x8192x1024, .f32⟩ : BufTy).Contents (Elt F)),
    unary main_v2 main_v3 (broadcastInDim S4x8192x1024 ![0, 1, 2] bcast_S1x8192x1024_S4x8192x1024_0_1_2 : (⟨S1x8192x1024, .f32⟩ : BufTy).Contents (Elt F) → (⟨S4x8192x1024, .f32⟩ : BufTy).Contents (Elt F)),
    binary main_arg0 main_v3 main_v4 (addf : (⟨S4x8192x1024, .f32⟩ : BufTy).Contents (Elt F) → (⟨S4x8192x1024, .f32⟩ : BufTy).Contents (Elt F) → (⟨S4x8192x1024, .f32⟩ : BufTy).Contents (Elt F)),
    nullary main_cst (constant S_ .f32 0x00000000#32),
    binary main_v4 main_cst main_v5 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v5 main_v6 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44800000#32),
    unary main_cst_0 main_v7 (broadcastInDim S4x8192x1 ![] bcast_S_S4x8192x1 : (⟨S_, .f32⟩ : BufTy).Contents (Elt F) → (⟨S4x8192x1, .f32⟩ : BufTy).Contents (Elt F)),
    binary main_v6 main_v7 main_v8 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v9 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v4 main_v9 main_v10 (subf : (⟨S4x8192x1024, .f32⟩ : BufTy).Contents (Elt F) → (⟨S4x8192x1024, .f32⟩ : BufTy).Contents (Elt F) → (⟨S4x8192x1024, .f32⟩ : BufTy).Contents (Elt F)),
    binary main_v10 main_v10 main_v11 (mulf : (⟨S4x8192x1024, .f32⟩ : BufTy).Contents (Elt F) → (⟨S4x8192x1024, .f32⟩ : BufTy).Contents (Elt F) → (⟨S4x8192x1024, .f32⟩ : BufTy).Contents (Elt F)),
    nullary main_cst_1 (constant S_ .f32 0x00000000#32),
    binary main_v11 main_cst_1 main_v12 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v12 main_v13 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_2 (constant S_ .f32 0x44800000#32),
    unary main_cst_2 main_v14 (broadcastInDim S4x8192x1 ![] bcast_S_S4x8192x1 : (⟨S_, .f32⟩ : BufTy).Contents (Elt F) → (⟨S4x8192x1, .f32⟩ : BufTy).Contents (Elt F)),
    binary main_v13 main_v14 main_v15 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v16 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v4 main_v16 main_v17 (subf : (⟨S4x8192x1024, .f32⟩ : BufTy).Contents (Elt F) → (⟨S4x8192x1024, .f32⟩ : BufTy).Contents (Elt F) → (⟨S4x8192x1024, .f32⟩ : BufTy).Contents (Elt F)),
    nullary main_cst_3 (constant S_ .f32 0x322BCC77#32),
    unary main_cst_3 main_v18 (broadcastInDim S4x8192x1 ![] bcast_S_S4x8192x1 : (⟨S_, .f32⟩ : BufTy).Contents (Elt F) → (⟨S4x8192x1, .f32⟩ : BufTy).Contents (Elt F)),
    binary main_v15 main_v18 main_v19 (addf : (⟨S4x8192x1, .f32⟩ : BufTy).Contents (Elt F) → (⟨S4x8192x1, .f32⟩ : BufTy).Contents (Elt F) → (⟨S4x8192x1, .f32⟩ : BufTy).Contents (Elt F)),
    unary main_v19 main_v20 (Host.sqrt : (⟨S4x8192x1, .f32⟩ : BufTy).Contents (Elt F) → (⟨S4x8192x1, .f32⟩ : BufTy).Contents (Elt F)),
    unary main_v20 main_v21 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v17 main_v21 main_v22 (Host.divf : (⟨S4x8192x1024, .f32⟩ : BufTy).Contents (Elt F) → (⟨S4x8192x1024, .f32⟩ : BufTy).Contents (Elt F) → (⟨S4x8192x1024, .f32⟩ : BufTy).Contents (Elt F)),
    unary main_arg2 main_v23 (broadcastInDim S1x1x1024 ![2] bcast_S1024_S1x1x1024_2 : (⟨S1024, .f32⟩ : BufTy).Contents (Elt F) → (⟨S1x1x1024, .f32⟩ : BufTy).Contents (Elt F)),
    unary main_v23 main_v24 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v22 main_v24 main_v25 (mulf : (⟨S4x8192x1024, .f32⟩ : BufTy).Contents (Elt F) → (⟨S4x8192x1024, .f32⟩ : BufTy).Contents (Elt F) → (⟨S4x8192x1024, .f32⟩ : BufTy).Contents (Elt F)),
    unary main_arg3 main_v26 (broadcastInDim S1x1x1024 ![2] bcast_S1024_S1x1x1024_2 : (⟨S1024, .f32⟩ : BufTy).Contents (Elt F) → (⟨S1x1x1024, .f32⟩ : BufTy).Contents (Elt F)),
    unary main_v26 main_v27 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v25 main_v27 main_v28 (addf : (⟨S4x8192x1024, .f32⟩ : BufTy).Contents (Elt F) → (⟨S4x8192x1024, .f32⟩ : BufTy).Contents (Elt F) → (⟨S4x8192x1024, .f32⟩ : BufTy).Contents (Elt F)) ]

-- fifty-odd binds re-associated: the rewrite under the chain recurses once per statement
set_option maxRecDepth 2048 in
/-- @main is that straight line: the two functions' definitions unfolded at their calls and sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub .., nullary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the fold leaves in the result buffer, stage by stage -/

/-- The position indices `0 … 8191`, -/
def refPos : (⟨S8192, .i32⟩ : BufTy).Contents (Elt F) := iotaInDim S8192 32 0

/-- each with `8192` added if it is negative (`jnp.take` counts a negative index from the end), as a column. -/
def refIdx : (⟨S8192x1, .i32⟩ : BufTy).Contents (Elt F) :=
  broadcastInDim S8192x1 ![0] bcast_S8192_S8192x1_0
    (select (cmpi .slt (refPos (F := F)) (broadcastInDim S8192 ![] bcast_S_S8192 (constantI S_ 32 0#32)))
      (addi (refPos (F := F)) (broadcastInDim S8192 ![] bcast_S_S8192 (constantI S_ 32 8192#32))) (refPos (F := F)))

/-- Which positions' indices lie in `[0, 8191]`: the conjunction, along the column's one entry, of the two comparisons. -/
def refInRange : (⟨S8192, .i1⟩ : BufTy).Contents (Elt F) :=
  Host.reduce IntOp.andi
    (andi (cmpi .sge (refIdx (F := F)) (broadcastInDim S8192x1 ![] bcast_S_S8192x1 (constantI S_ 32 0#32)))
      (cmpi .sle (refIdx (F := F)) (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- THE LOOKUP: the table's rows gathered at those indices, a row whose index is out of range replaced by a NaN. -/
def refTake (P : (⟨S8192x1024, .f32⟩ : BufTy).Contents (Elt F)) : (⟨S8192x1024, .f32⟩ : BufTy).Contents (Elt F) :=
  select (broadcastInDim S8192x1024 ![0] bcast_S8192_S8192x1024_0 (refInRange (F := F)))
    (Host.gather gather_S8192x1024_S8192x1_S8192x1024_1_0_n_n_0_1_11024 P (refIdx (F := F)))
    (broadcastInDim S8192x1024 ![] bcast_S_S8192x1024 (constant S_ .f32 0x7FC00000#32))

/-- THE EMBEDDING: the word embeddings plus the looked-up rows, broadcast over the batch. -/
def refEmb (W : (⟨S4x8192x1024, .f32⟩ : BufTy).Contents (Elt F)) (P : (⟨S8192x1024, .f32⟩ : BufTy).Contents (Elt F)) : (⟨S4x8192x1024, .f32⟩ : BufTy).Contents (Elt F) :=
  addf W (broadcastInDim S4x8192x1024 ![0, 1, 2] bcast_S1x8192x1024_S4x8192x1024_0_1_2
    (broadcastInDim S1x8192x1024 ![1, 2] bcast_S8192x1024_S1x8192x1024_1_2 (refTake P)))

/-- A row mean with the row axis kept: the sum along the last axis from zero, the axis put back, divided by `1024.0`. -/
def refKeptMean (X : (⟨S4x8192x1024, .f32⟩ : BufTy).Contents (Elt F)) : (⟨S4x8192x1, .f32⟩ : BufTy).Contents (Elt F) :=
  Host.divf (broadcastInDim S4x8192x1 ![0, 1] bcast_S4x8192_S4x8192x1_0_1
      (Host.reduceAdd X (constant S_ .f32 0x00000000#32) reducesTo_S4x8192x1024_S4x8192_d2 h_S_))
    (broadcastInDim S4x8192x1 ![] bcast_S_S4x8192x1 (constant S_ .f32 0x44800000#32))

/-- An array minus its kept row means. -/
def refDev (X : (⟨S4x8192x1024, .f32⟩ : BufTy).Contents (Elt F)) : (⟨S4x8192x1024, .f32⟩ : BufTy).Contents (Elt F) :=
  subf X (broadcastInDim S4x8192x1024 ![0, 1, 2] bcast_S4x8192x1_S4x8192x1024_0_1_2 (refKeptMean X))

/-- THE RESULT: the embedding's deviations divided by the square root of their kept mean square plus `ε`, times `g` and
    plus `b` along the rows. -/
def refOut (W : (⟨S4x8192x1024, .f32⟩ : BufTy).Contents (Elt F)) (P : (⟨S8192x1024, .f32⟩ : BufTy).Contents (Elt F)) (g b : (⟨S1024, .f32⟩ : BufTy).Contents (Elt F)) :
    (⟨S4x8192x1024, .f32⟩ : BufTy).Contents (Elt F) :=
  addf (mulf
      (Host.divf (refDev (refEmb W P))
        (broadcastInDim S4x8192x1024 ![0, 1, 2] bcast_S4x8192x1_S4x8192x1024_0_1_2
          (Host.sqrt (addf (refKeptMean (mulf (refDev (refEmb W P)) (refDev (refEmb W P))))
            (broadcastInDim S4x8192x1 ![] bcast_S_S4x8192x1 (constant S_ .f32 0x322BCC77#32))))))
      (broadcastInDim S4x8192x1024 ![0, 1, 2] bcast_S1x1x1024_S4x8192x1024_0_1_2
        (broadcastInDim S1x1x1024 ![2] bcast_S1024_S1x1x1024_2 g)))
    (broadcastInDim S4x8192x1024 ![0, 1, 2] bcast_S1x1x1024_S4x8192x1024_0_1_2
      (broadcastInDim S1x1x1024 ![2] bcast_S1024_S1x1x1024_2 b))

attribute [local irreducible] Host.reduce Host.reduceAdd Host.gather in
set_option maxRecDepth 8192 in
/-- The fold at the result buffer is `refOut` of the fold's start at the four arguments: each operation's result read
    where it is written and passed over elsewhere, the stages unfolded. -/
theorem out_eq (V : Valuation τ sig (Elt F)) :
    after ops V (main_v28 : DevRef τ sig)
      = refOut (V (main_arg0 : DevRef τ sig)) (V (main_arg1 : DevRef τ sig)) (V (main_arg2 : DevRef τ sig))
          (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- THE RUN, read: every weakly fair execution of @main terminates with the result buffer at `refOut` of the four
    arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
        = refOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (out_eq _), (h c main_arg0).trans (arg0_eq _),
      (h c main_arg1).trans (arg1_eq _), (h c main_arg2).trans (arg2_eq _), (h c main_arg3).trans (arg3_eq _)⟩)
    (run_main m ρ)

end Cert.ReferenceIdeal.Hand

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.LibGatherRows.lean ====
/-
  A general lemma: `stablehlo.gather` of WHOLE ROWS of a rank-2 operand, read at an index.

  What `jnp.take(x, idx, axis = 0)` of a table `x : [N, C]` at an integer vector `idx : [R]` lowers to: a gather with
  offset_dims `[1]`, collapsed_slice_dims `[0]`, start_index_map `[0]`, index_vector_dim `1` and slice sizes `[1, C]`
  over the indices as a column `[R, 1]`. Result element `(t, d)` is `x` at row `idx[t, 0]` — read as a signed integer
  and clamped into `[0, N − 1]`, as the gather clamps every start index — and column `d`: on the operand's row axis
  the clamped start index alone (that axis is collapsed: no offset), on its column axis the result's own column
  coordinate alone (that axis is not in the start index map: start `0`).
-/
import Idealize.ShloMosaic.PureOps
import Idealize.ShloMosaic.Lib.ValueIdx

noncomputable section

namespace Cert.Lib.GatherRows

open Idealize.ShloMosaic Idealize.ShloMosaic.ValueIdx

variable {α : Type}

/-- Those dimension numbers for an operand `[N, C]`, start indices `[R, 1]` and result `[R, C]`; their conditions
    `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(t, d)`: the operand at row `r`, the start index `idx[t, 0]` read signed and clamped into
    `[0, N − 1]`, and column `d`. The row is a variable with its defining equation, so that a user substitutes the
    row it has computed without rewriting under an index's bound proof. -/
theorem gather_rows_apply {N C R w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (d : Fin C) (r : Fin N)
    (hr : r.val = min (idx (ix2 t (0 : Fin 1))).toInt.toNat (N - 1)) :
    Host.gather (rowDims N C R wf) x idx (ix2 t d) = x (ix2 r d) := by
  unfold Host.gather
  refine congrArg x (funext fun a => Fin.ext ?_)
  match a with
  | ⟨0, _⟩ =>
    show (rowDims N C R wf).start (ix2 t d) idx 0 + (rowDims N C R wf).batchCoord (ix2 t d) 0
      + (rowDims N C R wf).offCoord (ix2 t d) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 t d) ⟨List.idxOf (0 : Fin 2) (rowDims N C R wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi, hr]
    rfl
  | ⟨1, _⟩ =>
    show (rowDims N C R wf).start (ix2 t d) idx 1 + (rowDims N C R wf).batchCoord (ix2 t d) 1
      + (rowDims N C R wf).offCoord (ix2 t d) 1 = d.val
    rw [GatherDims.batchCoord_eq_zero _ _ _ List.not_mem_nil]
    unfold GatherDims.start
    have h10 : (1 : Fin 2) ∉ ([0] : List (Fin 2)) := by decide
    rw [dif_neg (show (1 : Fin 2) ∉ (rowDims N C R wf).startIndexMap from h10)]
    unfold GatherDims.offCoord
    rw [dif_pos ((GatherDims.mem_sKept _ _).mpr ⟨(show (1 : Fin 2) ∉ (rowDims N C R wf).collapsedSliceDims from h10), List.not_mem_nil⟩)]
    simp only [Nat.add_zero, Nat.zero_add]
    rfl

end Cert.Lib.GatherRows

end
-- ==== Proof.RefValue.lean ====
/-
  The reference's result, read at an index: it is `G` of the four arguments.

  Stage by stage. The position indices are `0 … 8191`, none negative, so the lookup's wrap leaves them as they are
  (`refIdx_apply`); every one lies in `[0, 8191]`, so the in-range mask is all ones (`refInRange_apply`) and the gather,
  which clamps an index into the table's rows, reads row `t` at position `t`: the lookup is the table itself
  (`refTake_apply`). The embedding at `(a, r, k)` is the word embedding plus the table at `(r, k)` (`refEmb_apply`). A kept
  row mean of an array whose row `(a, r, ·)` is `e` is `(0 + ∑ e) / 1024`, the mean of `e` (`refKeptMean_apply`), the array
  minus its kept means is `e`'s deviations (`refDev_apply`), and the result at `(a, r, k)` is row `(a, r)` of the embedding
  normalised in the quotient spelling, scaled and shifted by entry `k` of the two vectors (`refOut_apply`, `refOut_eq_G`).
-/
import proofs.«158726_g75977971466584_fold_wed_m_535_16_alg».proof.Proof.RefRun
import proofs.«158726_g75977971466584_fold_wed_m_535_16_alg».proof.Proof.Spec
import proofs.«158726_g75977971466584_fold_wed_m_535_16_alg».proof.Proof.LibKeepdims3
import proofs.«158726_g75977971466584_fold_wed_m_535_16_alg».proof.Proof.LibHostKeepdims
import proofs.«158726_g75977971466584_fold_wed_m_535_16_alg».proof.Proof.LibGatherRows
import Idealize.ShloMosaic.Lib.ValueLayout
import Idealize.ShloMosaic.Lib.Affine
import Idealize.ShloMosaic.PureOps.Reduce

noncomputable section

open scoped BigOperators

namespace Cert.ReferenceIdeal.RefValue

open Cert.ReferenceIdeal Cert.ReferenceIdeal.Gen Cert.ReferenceIdeal.Hand Cert.EmbedNorm Cert.Lib.Keepdims3 Cert.Lib.GatherRows
open Idealize.ShloMosaic Idealize.ShloMosaic.ValueIdx

/-! ## The lookup at the positions `0 … 8191` is the table -/

/-- A 32-bit word written from a number below 8192 reads back, signed, as that number. -/
theorem toInt_ofNat_small (t : Nat) (ht : t < 8192) : (BitVec.ofNat 32 t).toInt = (t : Int) := by
  have h1 : (BitVec.ofNat 32 t).toNat = t := by rw [BitVec.toNat_ofNat]; omega
  rw [BitVec.toInt_eq_toNat_of_lt (by rw [h1]; omega), h1]

/-- A left fold by `and` from 1 over `i1` words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- So a host `reduce` by `and`, from 1, of an array of ones is 1 at every index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun n _ => hx n

/-- The wrapped index at position `t` is `t`: `t` is not negative, so nothing is added. -/
theorem refIdx_apply (t : Fin 8192) (u : Fin 1) : refIdx (F := Ideal) (ix2 t u) = BitVec.ofNat 32 t.val := by
  unfold refIdx
  rw [broadcastInDim_a_a1_apply _ _ rfl]
  show Scalar.select (IntOp.cmpi .slt (BitVec.ofNat 32 t.val) 0#32) (IntOp.addi (BitVec.ofNat 32 t.val) 8192#32)
    (BitVec.ofNat 32 t.val) = _
  have hn : IntOp.cmpi .slt (BitVec.ofNat 32 t.val) 0#32 ≠ 1#1 := fun h => by
    have h' := IntOp.cmpi_slt.mp h
    rw [toInt_ofNat_small _ t.isLt, show (0#32 : BitVec 32).toInt = 0 from by decide] at h'
    omega
  exact if_neg hn

/-- Every position's index lies in `[0, 8191]`: the mask is 1 everywhere. -/
theorem refInRange_apply (j : S8192.Idx) : refInRange (F := Ideal) j = 1#1 := by
  unfold refInRange
  refine reduce_andi_of_all _ _ _ _ rfl (fun i => ?_) j
  obtain ⟨t, u, rfl⟩ : ∃ (t : Fin 8192) (u : Fin 1), i = ix2 t u := ⟨i 0, i 1, eq_ix2 i⟩
  show IntOp.andi (IntOp.cmpi .sge (refIdx (F := Ideal) (ix2 t u)) 0#32) (IntOp.cmpi .sle (refIdx (F := Ideal) (ix2 t u)) 8191#32) = 1#1
  have h0 : IntOp.cmpi .sge (BitVec.ofNat 32 t.val) 0#32 = 1#1 := IntOp.cmpi_sge.mpr (by
    rw [toInt_ofNat_small _ t.isLt, show (0#32 : BitVec 32).toInt = 0 from by decide]; omega)
  have h1 : IntOp.cmpi .sle (BitVec.ofNat 32 t.val) 8191#32 = 1#1 := IntOp.cmpi_sle.mpr (by
    have := t.isLt
    rw [toInt_ofNat_small _ t.isLt, show (8191#32 : BitVec 32).toInt = 8191 from by decide]; omega)
  rw [refIdx_apply, h0, h1]
  rfl

/-- THE LOOKUP IS THE TABLE: at `(t, d)` the mask is 1, and the gather reads the row its clamped index names, row `t`. -/
theorem refTake_apply (P : SP.Idx → EReal) (t : Fin 8192) (d : Fin 1024) : refTake (F := Ideal) P (ix2 t d) = P (ix2 t d) := by
  unfold refTake
  show Scalar.select (broadcastInDim S8192x1024 ![0] bcast_S8192_S8192x1024_0 (refInRange (F := Ideal)) (ix2 t d))
    (Host.gather (rowDims 8192 1024 8192 gather_S8192x1024_S8192x1_S8192x1024_1_0_n_n_0_1_11024_wf) P (refIdx (F := Ideal)) (ix2 t d)) _ = _
  have hm : broadcastInDim S8192x1024 ![0] bcast_S8192_S8192x1024_0 (refInRange (F := Ideal)) (ix2 t d) = 1#1 := by
    unfold broadcastInDim
    exact refInRange_apply _
  rw [hm, select_one]
  refine gather_rows_apply _ P _ t d t ?_
  rw [refIdx_apply, toInt_ofNat_small _ t.isLt]
  have := t.isLt
  simp only [Int.toNat_natCast]
  omega

/-! ## The embedding and the normalisation -/

/-- The embedding at `(a, r, k)`: the word embedding plus the table at `(r, k)`. -/
theorem refEmb_apply (W : SW.Idx → EReal) (P : SP.Idx → EReal) (a : Fin 4) (r : Fin 8192) (k : Fin 1024) :
    refEmb (F := Ideal) W P (ix3 a r k) = embRow W P a r k := by
  unfold refEmb embRow
  rw [addf_apply, broadcastInDim_1bc_abc_apply _ _ rfl rfl, broadcastInDim_bc_1bc_apply _ _ rfl rfl, refTake_apply]

/-- A kept row mean of an array whose row `(a, r, ·)` is `e`: the mean of `e`. -/
theorem refKeptMean_apply (X : SW.Idx → EReal) (a : Fin 4) (r : Fin 8192) (e : Fin 1024 → EReal)
    (hX : ∀ k' : Fin 1024, X (ix3 a r k') = e k') : refKeptMean (F := Ideal) X (ix3 a r (0 : Fin 1)) = rowMean e := by
  unfold refKeptMean rowMean
  show Ideal.div (broadcastInDim S4x8192x1 ![0, 1] bcast_S4x8192_S4x8192x1_0_1
      (Host.reduceAdd (F := Ideal) X (constant (F := Ideal) S_ .f32 0x00000000#32) reducesTo_S4x8192x1024_S4x8192_d2 h_S_) (ix3 a r (0 : Fin 1)))
    (broadcastInDim S4x8192x1 ![] bcast_S_S4x8192x1 (constant (F := Ideal) S_ .f32 0x44800000#32) (ix3 a r (0 : Fin 1))) = _
  rw [broadcastInDim_ab_ab1_apply _ _ rfl rfl, hostReduceAdd_last_apply X _ _ (by decide) h_S_ a r,
    broadcastInDim_scalar_apply, constant_apply, constant_apply, Ideal.ofBits_zero_f32, zero_add]
  simp only [hX]

/-- An array minus its kept row means, where row `(a, r, ·)` is `e`: `e`'s deviations. -/
theorem refDev_apply (X : SW.Idx → EReal) (a : Fin 4) (r : Fin 8192) (e : Fin 1024 → EReal)
    (hX : ∀ k' : Fin 1024, X (ix3 a r k') = e k') (k : Fin 1024) : refDev (F := Ideal) X (ix3 a r k) = rowDev e k := by
  unfold refDev rowDev
  rw [subf_apply, broadcastInDim_ab1_abc_apply _ _ rfl rfl, refKeptMean_apply X a r e hX, hX]

/-- THE RESULT at `(a, r, k)`: row `(a, r)` of the embedding normalised in the quotient spelling, scaled and shifted by entry
    `k` of the two vectors. -/
theorem refOut_apply (W : SW.Idx → EReal) (P : SP.Idx → EReal) (g b : SV.Idx → EReal) (a : Fin 4) (r : Fin 8192) (k : Fin 1024) :
    refOut (F := Ideal) W P g b (ix3 a r k) = normQuot (embRow W P a r) (g (ix1 k)) (b (ix1 k)) k := by
  have hE : ∀ k' : Fin 1024, refEmb (F := Ideal) W P (ix3 a r k') = embRow W P a r k' := fun k' => refEmb_apply W P a r k'
  have hD : ∀ k' : Fin 1024, refDev (F := Ideal) (refEmb (F := Ideal) W P) (ix3 a r k') = rowDev (embRow W P a r) k' :=
    fun k' => refDev_apply _ a r _ hE k'
  have hS : ∀ k' : Fin 1024, (mulf (refDev (F := Ideal) (refEmb (F := Ideal) W P) : FVec Ideal S4x8192x1024 .f32)
        (refDev (F := Ideal) (refEmb (F := Ideal) W P)) : FVec Ideal S4x8192x1024 .f32) (ix3 a r k')
      = (fun k' => rowDev (embRow W P a r) k' * rowDev (embRow W P a r) k') k' := fun k' => by rw [mulf_apply, hD]
  unfold refOut normQuot rowVar
  rw [addf_apply, mulf_apply, broadcastInDim_11c_abc_apply _ _ rfl, broadcastInDim_c_11c_apply _ _ rfl,
    broadcastInDim_11c_abc_apply _ _ rfl, broadcastInDim_c_11c_apply _ _ rfl]
  show Ideal.div (refDev (F := Ideal) (refEmb (F := Ideal) W P) (ix3 a r k)) _ * _ + _ = _
  rw [hD, broadcastInDim_ab1_abc_apply _ _ rfl rfl]
  show Ideal.div _ (Ideal.sqrt (refKeptMean (F := Ideal) _ (ix3 a r (0 : Fin 1))
      + broadcastInDim S4x8192x1 (![] : Fin S_.rank → Fin S4x8192x1.rank) bcast_S_S4x8192x1 (constant (F := Ideal) S_ .f32 0x322BCC77#32) (ix3 a r (0 : Fin 1)))) * _ + _ = _
  rw [refKeptMean_apply _ a r _ hS, broadcastInDim_scalar_apply, constant_apply]
  rfl

/-- The reference's result array is `G` of the four arguments. -/
theorem refOut_eq_G (W : SW.Idx → EReal) (P : SP.Idx → EReal) (g b : SV.Idx → EReal) :
    refOut (F := Ideal) W P g b = G W P g b := by
  funext i
  obtain ⟨a, r, k, rfl⟩ : ∃ (a : Fin 4) (r : Fin 8192) (k : Fin 1024), i = ix3 a r k := ⟨i 0, i 1, i 2, eq_ix3 i⟩
  rw [refOut_apply, G_ix3]

end Cert.ReferenceIdeal.RefValue

end
-- ==== Proof.lean ====
/-
  The claim: a Pallas kernel that adds a position table to word embeddings and layer-normalises every row computes,
  over the extended reals, what the plain jnp reference computes.

  Both results are ONE function `G` of the four argument arrays (Proof/Spec.lean): row `(a, r)` of `W + P` minus its
  mean, divided by the square root of its variance plus `ε`, times `g` plus `b`. The kernel spells the division as a
  product with a reciprocal square root; the two spellings agree on every extended real above zero, and a variance plus
  `ε` is above zero whatever the inputs, so the precondition's finiteness is never opened.
    · the kernel: its grid's 32 blocks of 256 positions each hold `G`'s values (Proof/KernelPayload.lean reads the body's
      stored value at an index, Proof/KernelBlocks.lean lays the blocks over the array);
    · the reference: its table lookup at the positions `0 … 8191` is the table itself, and its normalisation read at an
      index is `G` (Proof/RefRun.lean is its run, Proof/RefValue.lean the reading);
    · the three frames are the generated frame runs of the two kernel programs and the reference's run with the result
      dropped; the ideal pass rewrote nothing, so `preserves` asks nothing.
-/
import proofs.«158726_g75977971466584_fold_wed_m_535_16_alg».proof.Defs
import proofs.«158726_g75977971466584_fold_wed_m_535_16_alg».proof.Proof.Gen.Kernel
import proofs.«158726_g75977971466584_fold_wed_m_535_16_alg».proof.Proof.Gen.Kernel.Frame
import proofs.«158726_g75977971466584_fold_wed_m_535_16_alg».proof.Proof.Gen.KernelIdeal
import proofs.«158726_g75977971466584_fold_wed_m_535_16_alg».proof.Proof.Gen.KernelIdeal.Frame
import proofs.«158726_g75977971466584_fold_wed_m_535_16_alg».proof.Proof.Gen.ReferenceIdeal
import proofs.«158726_g75977971466584_fold_wed_m_535_16_alg».proof.Proof.Gen.Pre_finite_inputs
import proofs.«158726_g75977971466584_fold_wed_m_535_16_alg».proof.Proof.KernelBlocks
import proofs.«158726_g75977971466584_fold_wed_m_535_16_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- At the ideal values the kernel's result array ends at `G` of its arguments and the reference's at `refOut` of
    arguments that agree with them, which is `G` of the same. -/
theorem algebraic : Cert.algebraic_KernelIdeal_ReferenceIdeal := by
  intro m ρ m' ρ' _ hagree
  refine ⟨fun c => Cert.EmbedNorm.G (Cert.KernelIdeal.Blocks.argW m c) (Cert.KernelIdeal.Blocks.argP m c)
    (Cert.KernelIdeal.Blocks.argG m c) (Cert.KernelIdeal.Blocks.argB m c), Cert.KernelIdeal.Blocks.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  exact Cert.ReferenceIdeal.RefValue.refOut_eq_G _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
